-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x64 : Shape := ⟨2, ![65536, 64]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_

variable [Facts]

def fn {F : FTy → Type} [FloatOps F] (main_arg0 : FVec F S65536x512 .f32) (main_arg1 : FVec F S65536x64 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  main_v8
-- ==== Kernel.lean ====
abbrev S65536x512 : Shape := ⟨2, ![65536, 512]⟩
abbrev S65536x64 : Shape := ⟨2, ![65536, 64]⟩
abbrev S2x64x512 : Shape := ⟨3, ![2, 64, 512]⟩
abbrev S2x1x1 : Shape := ⟨3, ![2, 1, 1]⟩
abbrev S2048x512 : Shape := ⟨2, ![2048, 512]⟩
abbrev S2048x64 : Shape := ⟨2, ![2048, 64]⟩
abbrev S1x64x512 : Shape := ⟨3, ![1, 64, 512]⟩
abbrev S1x1x1 : Shape := ⟨3, ![1, 1, 1]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S64x512 : Shape := ⟨2, ![64, 512]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S65536x512, .f32⟩
  | .hbm, ⟨1, _⟩ => ⟨S65536x64, .f32⟩
  | .hbm, ⟨2, _⟩ => ⟨S2x64x512, .f32⟩
  | .hbm, ⟨3, _⟩ => ⟨S2x1x1, .f32⟩
  | .hbm, ⟨4, _⟩ => ⟨S_, .f32⟩
  | .hbm, ⟨5, _⟩ => ⟨S64x512, .f32⟩
  | .hbm, ⟨6, _⟩ => ⟨S_, .f32⟩
  | .hbm, ⟨7, _⟩ => ⟨S_, .f32⟩
  | .hbm, ⟨8, _⟩ => ⟨S64x512, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x64, .f32⟩
  | .local _ .vmem, ⟨3, _⟩ => ⟨S2048x64, .f32⟩
  | .local _ .vmem, ⟨4, _⟩ => ⟨S1x64x512, .f32⟩
  | .local _ .vmem, ⟨5, _⟩ => ⟨S1x64x512, .f32⟩
  | .local _ .vmem, ⟨6, _⟩ => ⟨S1x1x1, .f32⟩
  | .local _ .vmem, ⟨7, _⟩ => ⟨S1x1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x64x512_S1x64x512_0_0_0 : ∀ a, (![0, 0, 0] : Fin 3 → Nat) a + S1x64x512.size a ≤ S1x64x512.size a
  h_S1x64x512 : 0 < S1x64x512.numel
  inb_S1x1x1_S1x1x1_0_0_0 : ∀ a, (![0, 0, 0] : Fin 3 → Nat) a + S1x1x1.size a ≤ S1x1x1.size a
  h_S1x1x1 : 0 < S1x1x1.numel
  inb_S2048x512_S2048x512_0_0 : ∀ a, (![0, 0] : Fin 2 → Nat) a + S2048x512.size a ≤ S2048x512.size a
  h_S2048x512 : 0 < S2048x512.numel
  inb_S2048x64_S2048x64_0_0 : ∀ a, (![0, 0] : Fin 2 → Nat) a + S2048x64.size a ≤ S2048x64.size a
  h_S2048x64 : 0 < S2048x64.numel
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  shapeCasts_S1x1x1_S1x1 : S1x1x1.ShapeCasts S1x1
  shapeCasts_S1x1_S1x1x1 : S1x1.ShapeCasts S1x1x1
  bitsLt_bf16_f32 : FTy.bits .bf16 < FTy.bits .f32
  shapeCasts_S1x64x512_S64x512 : S1x64x512.ShapeCasts S64x512
  shapeCasts_S64x512_S1x64x512 : S64x512.ShapeCasts S1x64x512
  reducesTo_S2x64x512_S64x512_d0 : S2x64x512.ReducesTo [0] S64x512
  h_S_ : 0 < S_.numel
  reducesTo_S2x1x1_S_d0_1_2 : S2x1x1.ReducesTo [0, 1, 2] S_
  reducesTo_S64x512_S_d0_1 : S64x512.ReducesTo [0, 1] S_
  dot_S2048x64_S2048x512_S64x512_0_0_1_1_n_n_wf : DotDims.WF S2048x64 S2048x512 S64x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S65536x64.size a
  hwx0_1 : ∀ i : grid0.Coords, EltTy.bits .f32 = 32 ∨ (Rect.block (s := S65536x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S2x64x512.size a
  hwx0_2 : ∀ i : grid0.Coords, EltTy.bits .f32 = 32 ∨ (Rect.block (s := S2x64x512) S1x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S2048x64_S2048x512_S64x512_0_0_1_1_n_n : DotDims S2048x64 S2048x512 S64x512 where
  lhsContracting := [0]
  rhsContracting := [0]
  lhsNonContracting := [1]
  rhsNonContracting := [1]
  lhsBatch := []
  rhsBatch := []
  wf := dot_S2048x64_S2048x512_S64x512_0_0_1_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x64x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536x64 : Shape := ⟨2, ![65536, 64]⟩
abbrev S_ : Shape := ⟨0, ![]⟩
abbrev S64x65536 : Shape := ⟨2, ![64, 65536]⟩
abbrev S64x512 : Shape := ⟨2, ![64, 512]⟩

abbrev nBuf : Space → Nat
  | .hbm => 11
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x64, .f32⟩
  | .hbm, ⟨2, _⟩ => ⟨S65536x512, .f32⟩
  | .hbm, ⟨3, _⟩ => ⟨S_, .f32⟩
  | .hbm, ⟨4, _⟩ => ⟨S_, .f32⟩
  | .hbm, ⟨5, _⟩ => ⟨S64x65536, .f32⟩
  | .hbm, ⟨6, _⟩ => ⟨S64x512, .f32⟩
  | .hbm, ⟨7, _⟩ => ⟨S64x512, .f32⟩
  | .hbm, ⟨8, _⟩ => ⟨S_, .f32⟩
  | .hbm, ⟨9, _⟩ => ⟨S_, .f32⟩
  | .hbm, ⟨10, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  reducesTo_S65536x512_S_d0_1 : S65536x512.ReducesTo [0, 1] S_
  h_S_ : 0 < S_.numel
  transposes_S65536x64_S64x65536_1_0 : S65536x64.Transposes [1, 0] S64x65536
  reducesTo_S64x512_S_d0_1 : S64x512.ReducesTo [0, 1] S_
  dot_S64x65536_S65536x512_S64x512_1_0_0_1_n_n_wf : DotDims.WF S64x65536 S65536x512 S64x512 [1] [0] [0] [1] [] []

variable [Facts₀]

def dot_S64x65536_S65536x512_S64x512_1_0_0_1_n_n : DotDims S64x65536 S65536x512 S64x512 where
  lhsContracting := [1]
  rhsContracting := [0]
  lhsNonContracting := [0]
  rhsNonContracting := [1]
  lhsBatch := []
  rhsBatch := []
  wf := dot_S64x65536_S65536x512_S64x512_1_0_0_1_n_n_wf

class Facts : Prop extends Facts₀ where

variable [Facts]
-- ==== Proof.Pieces.lean ====
/-
  What one grid point leaves in the two accumulators, as a value.

  The kernel walks a 2 x 16 grid; at inner position 0 it first clears both accumulator blocks and then adds,
  elsewhere it adds to what the point before left. Read back through the covering stores, the block of partial
  Gram sums ends as "previous block + (F tile)^T (h tile)" and the one-entry block of partial squared norms as
  "previous entry + sum of squares of the h tile", where at inner position 0 the previous contents are the zero
  block. Both statements hold for any float interpretation.
-/
import proofs.«178253_j67181878444634_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

/-- The zero offset on three axes, and on two: every load and store of the body is of a whole block. -/
theorem hz3 : (![0, 0, 0] : Fin 3 → Nat) = fun _ => 0 := funext fun a => by fin_cases a <;> rfl
theorem hz2 : (![0, 0] : Fin 2 → Nat) = fun _ => 0 := funext fun a => by fin_cases a <;> rfl

/-- Away from the first point of a half, the Gram block is covered by one store: the previous block plus the product
    of the two loaded tiles. -/
theorem out_B_2 (c : Dev nD) (i : grid0.Coords) (a2 : Memref sig .tc .vmem S2048x512 .f32) (h2 : a2.IsWhole)
    (a3 : Memref sig .tc .vmem S2048x64 .f32) (h3 : a3.IsWhole) (a4 : Memref sig .tc .vmem S1x64x512 .f32) (h4 : a4.IsWhole)
    (a5 : Memref sig .tc .vmem S1x1x1 .f32) (h5 : a5.IsWhole) (hc : ¬cond0_0 i)
    (x0 : Vec F S2048x512 .f32) (x1 : Vec F S2048x64 .f32) (xo2 : Vec F S1x64x512 .f32) (xo3 : Vec F S1x1x1 .f32) :
    out0_B_2 c i a2 h2 a3 h3 a4 h4 a5 h5 hc x0 x1 xo2 xo3 = k0_pay4 x0 x1 xo2 := by
  unfold out0_B_2
  rw [View.read_writes_eq_canon _ _ _ (cover0_B_2 c i a2 h2 a3 h3 a4 h4 a5 h5 hc x0 x1 xo2 xo3)]
  unfold kernelRun0_B
  dsimp only
  rw [View.canon_unit_zero hz3]
  simp only [View.readAt_eq_ld, h2.read_unread, h3.read_unread, h4.read_unread, View.ld_unit_zero (S := S2048x512) hz2,
    View.ld_unit_zero (S := S2048x64) hz2, View.ld_unit_zero (S := S1x64x512) hz3]

/-- Away from the first point of a half, the squared-norm block is covered by one store: the previous entry plus the
    loaded tile's sum of squares. -/
theorem out_B_3 (c : Dev nD) (i : grid0.Coords) (a2 : Memref sig .tc .vmem S2048x512 .f32) (h2 : a2.IsWhole)
    (a3 : Memref sig .tc .vmem S2048x64 .f32) (h3 : a3.IsWhole) (a4 : Memref sig .tc .vmem S1x64x512 .f32) (h4 : a4.IsWhole)
    (a5 : Memref sig .tc .vmem S1x1x1 .f32) (h5 : a5.IsWhole) (hc : ¬cond0_0 i)
    (x0 : Vec F S2048x512 .f32) (x1 : Vec F S2048x64 .f32) (xo2 : Vec F S1x64x512 .f32) (xo3 : Vec F S1x1x1 .f32) :
    out0_B_3 c i a2 h2 a3 h3 a4 h4 a5 h5 hc x0 x1 xo2 xo3 = k0_pay3 x0 xo3 := by
  unfold out0_B_3
  rw [View.read_writes_eq_canon _ _ _ (cover0_B_3 c i a2 h2 a3 h3 a4 h4 a5 h5 hc x0 x1 xo2 xo3)]
  unfold kernelRun0_B
  dsimp only
  rw [View.canon_unit_zero hz3]
  simp only [View.readAt_eq_ld, h2.read_unread, h5.read_unread, View.ld_unit_zero (S := S2048x512) hz2,
    View.ld_unit_zero (S := S1x1x1) hz3]

/-- At the first point of a half the Gram block is first overwritten with zeros and read back, so the later store adds
    the tiles' product to the zero block. -/
theorem out_A_2 (c : Dev nD) (i : grid0.Coords) (a2 : Memref sig .tc .vmem S2048x512 .f32) (h2 : a2.IsWhole)
    (a3 : Memref sig .tc .vmem S2048x64 .f32) (h3 : a3.IsWhole) (a4 : Memref sig .tc .vmem S1x64x512 .f32) (h4 : a4.IsWhole)
    (a5 : Memref sig .tc .vmem S1x1x1 .f32) (h5 : a5.IsWhole) (hc : cond0_0 i)
    (x0 : Vec F S2048x512 .f32) (x1 : Vec F S2048x64 .f32) :
    out0_A_2 c i a2 h2 a3 h3 a4 h4 a5 h5 hc x0 x1 = k0_pay4 x0 x1 k0_pay1 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x64x512) hz3, View.readCov_unit_zero (S := S1x64x512) _ hz3]
  simp only [View.readAt_eq_ld, h2.read_unread, h3.read_unread, View.ld_unit_zero (S := S2048x512) hz2,
    View.ld_unit_zero (S := S2048x64) hz2]

/-- At the first point of a half the squared-norm block likewise restarts from zero. -/
theorem out_A_3 (c : Dev nD) (i : grid0.Coords) (a2 : Memref sig .tc .vmem S2048x512 .f32) (h2 : a2.IsWhole)
    (a3 : Memref sig .tc .vmem S2048x64 .f32) (h3 : a3.IsWhole) (a4 : Memref sig .tc .vmem S1x64x512 .f32) (h4 : a4.IsWhole)
    (a5 : Memref sig .tc .vmem S1x1x1 .f32) (h5 : a5.IsWhole) (hc : cond0_0 i)
    (x0 : Vec F S2048x512 .f32) (x1 : Vec F S2048x64 .f32) :
    out0_A_3 c i a2 h2 a3 h3 a4 h4 a5 h5 hc x0 x1 = k0_pay3 x0 k0_pay2 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, View.ld_unit_zero (S := S2048x512) hz2]

end Cert.KernelIdeal.Found
end
-- ==== Proof.PointValue.lean ====
/-
  One grid point's arithmetic, entry by entry, over the extended reals.

  With h the point's 2048 x 512 tile of the first argument and F its 2048 x 64 tile of the second:
  the squared-norm accumulator's one entry becomes  previous + sum_r sum_d h[r,d]^2  (a lane sum per row, then a
  sum down the column of row sums), and entry (k,d) of the Gram accumulator becomes
  previous[k,d] + sum_r F[r,k] * h[r,d]  (the rounding to bf16 before the product is the identity on the
  extended reals, and a product into the zero accumulator is the bare sum over the contracted row index).
-/
import proofs.«178253_j67181878444634_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.PointValue

open Cert.KernelIdeal Cert.KernelIdeal.Gen

/-- A column of length a viewed as an a x 1 matrix has the same entries. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of the squared tile at row r: the sum over the 512 lanes of h[r,d]^2. -/
theorem rowSq_apply (x0 : FVec Ideal S2048x512 .f32) (r : Fin 2048) :
    multiReduction (F := Ideal) .add [1] S2048 (mulf x0 x0) 0x00000000#32 reduces_S2048x512_S2048 (.inl rfl) rfl (ix1 r)
      = ∑ d : Fin 512, x0 (ix2 r d) * x0 (ix2 r d) := by
  refine (Ideal.multiReduction_add_single (mulf x0 x0) 0x00000000#32 reduces_S2048x512_S2048 (.inl rfl) rfl (ix1 r)).trans ?_
  refine Finset.sum_congr rfl fun d _ => ?_
  have e : reduces_S2048x512_S2048.lift (ix1 r) d = ix2 r d :=
    funext fun a => Fin.ext (by match a with | ⟨0, _⟩ => rfl | ⟨1, _⟩ => rfl)
  rw [e]; rfl

/-- The sum down a 2048 x 1 column. -/
theorem colSum_apply (y : FVec Ideal S2048x1 .f32) :
    multiReduction (F := Ideal) .add [0] S1 y 0x00000000#32 reduces_S2048x1_S1 (.inl rfl) rfl (ix1 (0 : Fin 1))
      = ∑ r : Fin 2048, y (ix2 r (0 : Fin 1)) := by
  refine (Ideal.multiReduction_add_single y 0x00000000#32 reduces_S2048x1_S1 (.inl rfl) rfl (ix1 (0 : Fin 1))).trans ?_
  refine Finset.sum_congr rfl fun r _ => ?_
  have e : reduces_S2048x1_S1.lift (ix1 (0 : Fin 1)) r = ix2 r (0 : Fin 1) :=
    funext fun a => Fin.ext (by match a with | ⟨0, _⟩ => rfl | ⟨1, _⟩ => rfl)
  exact congrArg y e

/-- The squared-norm accumulator after one point: the previous entry plus the sum of squares of the tile. -/
theorem sq_apply (x0 : Vec Ideal S2048x512 .f32) (xo : Vec Ideal S1x1x1 .f32) :
    k0_pay3 (F := Ideal) x0 xo (ix3 (0 : Fin 1) (0 : Fin 1) (0 : Fin 1))
      = xo (ix3 (0 : Fin 1) (0 : Fin 1) (0 : Fin 1)) + ∑ r : Fin 2048, ∑ d : Fin 512, x0 (ix2 r d) * x0 (ix2 r d) := by
  unfold k0_pay3
  try dsimp only
  refine (shapeCast_ab_1ab_apply _ _ (0 : Fin 1) (0 : Fin 1) (0 : Fin 1)).trans ?_
  refine (addf_apply _ _ _).trans ?_
  refine congrArg₂ (· + ·) (shapeCast_1ab_ab_apply _ _ (0 : Fin 1) (0 : Fin 1)) ?_
  refine (shapeCast_a_1a_apply _ _ (0 : Fin 1) (0 : Fin 1)).trans ?_
  refine (colSum_apply _).trans ?_
  refine Finset.sum_congr rfl fun r _ => ?_
  refine (shapeCast_a_a1_apply _ _ r (0 : Fin 1)).trans ?_
  exact rowSq_apply x0 r

/-- In the tile product the contraction runs over the rows of both tiles: at output (k,d) and contracted row q the left
    operand F is read at (q, k) ... -/
theorem lhs_row (i : S64x512.Idx) (q : dot_S2048x64_S2048x512_S64x512_0_0_1_1_n_n.contr.Idx) :
    (dot_S2048x64_S2048x512_S64x512_0_0_1_1_n_n.lhsIdx i q 0).val = (q ⟨0, by decide⟩).val :=
  dot_S2048x64_S2048x512_S64x512_0_0_1_1_n_n.lhsIdx_val_of_single rfl i q
theorem lhs_col (i : S64x512.Idx) (q : dot_S2048x64_S2048x512_S64x512_0_0_1_1_n_n.contr.Idx) :
    (dot_S2048x64_S2048x512_S64x512_0_0_1_1_n_n.lhsIdx i q 1).val = (i 0).val := by
  unfold DotDims.lhsIdx
  rw [dif_neg (show ¬(1 : Fin S2048x64.rank) ∈ dot_S2048x64_S2048x512_S64x512_0_0_1_1_n_n.lhsBatch by decide),
    dif_pos (show (1 : Fin S2048x64.rank) ∈ dot_S2048x64_S2048x512_S64x512_0_0_1_1_n_n.lhsNonContracting by decide)]
  rfl
/-- ... and the right operand h at (q, d). -/
theorem rhs_row (i : S64x512.Idx) (q : dot_S2048x64_S2048x512_S64x512_0_0_1_1_n_n.contr.Idx) :
    (dot_S2048x64_S2048x512_S64x512_0_0_1_1_n_n.rhsIdx i q 0).val = (q ⟨0, by decide⟩).val :=
  dot_S2048x64_S2048x512_S64x512_0_0_1_1_n_n.rhsIdx_val_of_single rfl i q
theorem rhs_col (i : S64x512.Idx) (q : dot_S2048x64_S2048x512_S64x512_0_0_1_1_n_n.contr.Idx) :
    (dot_S2048x64_S2048x512_S64x512_0_0_1_1_n_n.rhsIdx i q 1).val = (i 1).val := by
  unfold DotDims.rhsIdx
  rw [dif_neg (show ¬(1 : Fin S2048x512.rank) ∈ dot_S2048x64_S2048x512_S64x512_0_0_1_1_n_n.rhsBatch by decide),
    dif_pos (show (1 : Fin S2048x512.rank) ∈ dot_S2048x64_S2048x512_S64x512_0_0_1_1_n_n.rhsNonContracting by decide)]
  rfl

/-- The tile product F^T h into the zero accumulator at (k,d): the sum over the 2048 rows of F[r,k] * h[r,d]. -/
theorem tileProd_apply (x0 : FVec Ideal S2048x512 .bf16) (x1 : FVec Ideal S2048x64 .bf16) (k : Fin 64) (d : Fin 512) :
    matmul (F := Ideal) dot_S2048x64_S2048x512_S64x512_0_0_1_1_n_n none x1 x0 (constant S64x512 .f32 0x00000000#32) (ix2 k d)
      = ∑ r : Fin 2048, x1 (ix2 r k) * x0 (ix2 r d) := by
  simp only [matmul]
  rw [Ideal.matmul_constant_zero_apply,
    ← Equiv.sum_comp (ValueIdx.contrEquiv1 dot_S2048x64_S2048x512_S64x512_0_0_1_1_n_n 2048 rfl rfl).symm]
  refine Finset.sum_congr rfl fun r _ => ?_
  have hr := ValueIdx.contrEquiv1_symm_val dot_S2048x64_S2048x512_S64x512_0_0_1_1_n_n 2048 rfl rfl r
  have el : dot_S2048x64_S2048x512_S64x512_0_0_1_1_n_n.lhsIdx (ix2 k d) ((ValueIdx.contrEquiv1 dot_S2048x64_S2048x512_S64x512_0_0_1_1_n_n 2048 rfl rfl).symm r) = ix2 r k :=
    funext fun a => Fin.ext (by
      match a with
      | ⟨0, _⟩ => exact (lhs_row _ _).trans hr
      | ⟨1, _⟩ => exact lhs_col _ _)
  have er : dot_S2048x64_S2048x512_S64x512_0_0_1_1_n_n.rhsIdx (ix2 k d) ((ValueIdx.contrEquiv1 dot_S2048x64_S2048x512_S64x512_0_0_1_1_n_n 2048 rfl rfl).symm r) = ix2 r d :=
    funext fun a => Fin.ext (by
      match a with
      | ⟨0, _⟩ => exact (rhs_row _ _).trans hr
      | ⟨1, _⟩ => exact rhs_col _ _)
  rw [el, er]

/-- The Gram accumulator after one point, at (k,d): the previous entry plus sum_r F[r,k] * h[r,d]. -/
theorem gram_apply (x0 : Vec Ideal S2048x512 .f32) (x1 : Vec Ideal S2048x64 .f32) (xo : Vec Ideal S1x64x512 .f32)
    (k : Fin 64) (d : Fin 512) :
    k0_pay4 (F := Ideal) x0 x1 xo (ix3 (0 : Fin 1) k d)
      = xo (ix3 (0 : Fin 1) k d) + ∑ r : Fin 2048, x1 (ix2 r k) * x0 (ix2 r d) := by
  unfold k0_pay4
  try dsimp only
  refine (shapeCast_ab_1ab_apply _ _ (0 : Fin 1) k d).trans ?_
  refine (addf_apply _ _ _).trans ?_
  refine congrArg₂ (· + ·) (shapeCast_1ab_ab_apply _ _ k d) ?_
  exact tileProd_apply _ _ k d

end Cert.KernelIdeal.PointValue

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.TileSums.lean ====
/-
  The 65536 rows in 32 tiles of 2048, the 32 tiles in two halves of 16.

  Row r of tile p is row 2048 p + r. For a 65536 x 512 array h and a 65536 x 64 array F of extended reals, a tile's
  contribution to the squared norm is  sum_r sum_d h[2048 p + r, d]^2  and to entry (k,d) of the Gram matrix F^T h it is
  sum_r F[2048 p + r, k] * h[2048 p + r, d].  A half's contribution is the sum over its 16 tiles, and the two halves
  together give the sums over all 65536 rows. Only commutativity and associativity of addition are used, so everything
  here holds on the extended reals with no finiteness assumption.
-/
import Idealize.ShloMosaic.PureOps.Ideal
import Idealize.ShloMosaic.Lib.ValueIdx
import proofs.«178253_j67181878444634_2_alg».proof.Proof.LibBlockSums

noncomputable section

open Idealize.ShloMosaic Idealize.ShloMosaic.ValueIdx

namespace Cert.TileSums

/-- Row r of tile p among the 65536 rows. -/
def row (p : Fin 32) (r : Fin 2048) : Fin 65536 := ⟨p.val * 2048 + r.val, by omega⟩

/-- Tile p's part of the squared norm of h. -/
def tileSq (h : (⟨2, ![65536, 512]⟩ : Shape).Idx → EReal) (p : Fin 32) : EReal :=
  ∑ r : Fin 2048, ∑ d : Fin 512, h (ix2 (row p r) d) * h (ix2 (row p r) d)

/-- Tile p's part of entry (k,d) of F^T h. -/
def tileGram (h : (⟨2, ![65536, 512]⟩ : Shape).Idx → EReal) (f : (⟨2, ![65536, 64]⟩ : Shape).Idx → EReal)
    (p : Fin 32) (k : Fin 64) (d : Fin 512) : EReal :=
  ∑ r : Fin 2048, f (ix2 (row p r) k) * h (ix2 (row p r) d)

/-- The same with the tile numbered by a natural number (zero past the last tile). -/
def tileSqN (h : (⟨2, ![65536, 512]⟩ : Shape).Idx → EReal) (n : ℕ) : EReal :=
  if hn : n < 32 then tileSq h ⟨n, hn⟩ else 0

def tileGramN (h : (⟨2, ![65536, 512]⟩ : Shape).Idx → EReal) (f : (⟨2, ![65536, 64]⟩ : Shape).Idx → EReal)
    (n : ℕ) (k : Fin 64) (d : Fin 512) : EReal :=
  if hn : n < 32 then tileGram h f ⟨n, hn⟩ k d else 0

/-- Half q's part of the squared norm: its 16 tiles. -/
def halfSq (h : (⟨2, ![65536, 512]⟩ : Shape).Idx → EReal) (q : Fin 2) : EReal :=
  ∑ j ∈ Finset.range 16, tileSqN h (16 * q.val + j)

/-- Half q's part of entry (k,d) of F^T h. -/
def halfGram (h : (⟨2, ![65536, 512]⟩ : Shape).Idx → EReal) (f : (⟨2, ![65536, 64]⟩ : Shape).Idx → EReal)
    (q : Fin 2) (k : Fin 64) (d : Fin 512) : EReal :=
  ∑ j ∈ Finset.range 16, tileGramN h f (16 * q.val + j) k d

/-- Two halves of 16 tiles are the 32 tiles. -/
theorem sum_halves {M : Type*} [AddCommMonoid M] (T : Fin 32 → M) (TN : ℕ → M)
    (hT : ∀ (n : ℕ) (hn : n < 32), TN n = T ⟨n, hn⟩) :
    ∑ q : Fin 2, ∑ j ∈ Finset.range 16, TN (16 * q.val + j) = ∑ p : Fin 32, T p := by
  rw [BlockSums.sum_blocks (m := 2) (n := 16) (N := 32) rfl (fun q j => ⟨q.val * 16 + j.val, by omega⟩) (fun _ _ => rfl) T]
  refine Finset.sum_congr rfl fun q _ => ?_
  rw [Finset.sum_range]
  refine Finset.sum_congr rfl fun j _ => ?_
  rw [hT (16 * q.val + j.val) (by omega)]
  exact congrArg T (Fin.ext (by show 16 * q.val + j.val = q.val * 16 + j.val; omega))

/-- 32 tiles of 2048 rows are the 65536 rows. -/
theorem sum_tiles {M : Type*} [AddCommMonoid M] (g : Fin 65536 → M) :
    ∑ p : Fin 32, ∑ r : Fin 2048, g (row p r) = ∑ n : Fin 65536, g n :=
  (BlockSums.sum_blocks (m := 32) (n := 2048) (N := 65536) rfl row (fun _ _ => rfl) g).symm

/-- The two halves' squared norms add up to the squared norm of h. -/
theorem sum_halfSq (h : (⟨2, ![65536, 512]⟩ : Shape).Idx → EReal) :
    ∑ q : Fin 2, halfSq h q = ∑ n : Fin 65536, ∑ d : Fin 512, h (ix2 n d) * h (ix2 n d) := by
  unfold halfSq
  rw [sum_halves (tileSq h) (tileSqN h) (fun n hn => dif_pos hn)]
  exact sum_tiles (fun n => ∑ d : Fin 512, h (ix2 n d) * h (ix2 n d))

/-- The two halves' Gram entries add up to the entry of F^T h. -/
theorem sum_halfGram (h : (⟨2, ![65536, 512]⟩ : Shape).Idx → EReal) (f : (⟨2, ![65536, 64]⟩ : Shape).Idx → EReal)
    (k : Fin 64) (d : Fin 512) :
    ∑ q : Fin 2, halfGram h f q k d = ∑ n : Fin 65536, f (ix2 n k) * h (ix2 n d) := by
  unfold halfGram
  rw [sum_halves (fun p => tileGram h f p k d) (fun n => tileGramN h f n k d) (fun n hn => dif_pos hn)]
  exact sum_tiles (fun n => f (ix2 n k) * h (ix2 n d))

/-- A 2 x 1 x 1 array is summed by its first coordinate. -/
theorem sum_idx211 {M : Type*} [AddCommMonoid M] (g : (⟨3, ![2, 1, 1]⟩ : Shape).Idx → M) :
    ∑ i, g i = ∑ q : Fin 2, g (ix3 q (0 : Fin 1) (0 : Fin 1)) := by
  refine Fintype.sum_equiv ⟨fun i => i 0, fun q => ix3 q (0 : Fin 1) (0 : Fin 1), fun i => ?_, fun _ => rfl⟩ _ _ (fun i => ?_)
  · funext a
    match a with
    | ⟨0, _⟩ => rfl
    | ⟨1, _⟩ => exact Fin.ext (by have h1 : (i 1).val < 1 := (i 1).isLt; show 0 = (i 1).val; omega)
    | ⟨2, _⟩ => exact Fin.ext (by have h2 : (i 2).val < 1 := (i 2).isLt; show 0 = (i 2).val; omega)
  · refine congrArg g ?_
    funext a
    match a with
    | ⟨0, _⟩ => rfl
    | ⟨1, _⟩ => exact Fin.ext (by have h1 : (i 1).val < 1 := (i 1).isLt; show (i 1).val = 0; omega)
    | ⟨2, _⟩ => exact Fin.ext (by have h2 : (i 2).val < 1 := (i 2).isLt; show (i 2).val = 0; omega)

end Cert.TileSums

end
-- ==== Proof.Accumulate.lean ====
/-
  The accumulators after each grid point, as sums of tiles.

  Grid point t (0 <= t < 32) reads rows 2048 t, ..., 2048 t + 2047 of both arguments: tile t. Within a half
  (points 16 q, ..., 16 q + 15) the accumulators are cleared at the first point and added to afterwards, so after point
  16 q + i the Gram block holds at (k,d) the sum over tiles 16 q, ..., 16 q + i of  sum_r F[r,k] h[r,d],  and the
  squared-norm block the sum over the same tiles of  sum_r sum_d h[r,d]^2.  By induction on i; the base uses 0 + x = x.
-/
import proofs.«178253_j67181878444634_2_alg».proof.Proof.Pieces
import proofs.«178253_j67181878444634_2_alg».proof.Proof.PointValue
import proofs.«178253_j67181878444634_2_alg».proof.Proof.TileSums

noncomputable section

open Idealize.ShloMosaic Idealize.ShloMosaic.TcCoe Idealize.SL.Sem Idealize.ShloMosaic.ValueIdx
open Idealize.ShloMosaic.Pipeline (Dat)

namespace Cert.KernelIdeal.Accumulate

open Cert.KernelIdeal Cert.KernelIdeal.Gen Cert.TileSums

variable (m : (ℓ : Loc nD τ sig) → Buf (Elt Ideal) ℓ)

/-- The first argument's array on core c (h), and the second's (F). -/
abbrev harr (c : Dev nD) : (⟨2, ![65536, 512]⟩ : Shape).Idx → EReal := m ((c : Thread nD τ).loc main_arg0)
abbrev farr (c : Dev nD) : (⟨2, ![65536, 64]⟩ : Shape).Idx → EReal := m ((c : Thread nD τ).loc main_arg1)

/-- The block indices over the grid: point t takes row block t of both inputs and block t / 16 of both outputs. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-- Point t's blocks of h and of F, as the body finds them. -/
def hblk (c : Dev nD) (t : Fin cfg0.N) : S2048x512.Idx → EReal := iblk m c 0 t
def fblk (c : Dev nD) (t : Fin cfg0.N) : S2048x64.Idx → EReal := iblk m c 1 t

/-- Row r of point t's block of h is row 2048 t + r of h. -/
theorem hblk_apply (c : Dev nD) (t : Fin cfg0.N) (p : Fin 32) (hp : p.val = t.val) (r : Fin 2048) (d : Fin 512) :
    hblk m c t (ix2 r d) = harr m c (ix2 (row p r) d) := by
  obtain ⟨e0, e1, -⟩ := idx_facts t
  unfold hblk iblk
  rw [View.read_apply]
  show V m c main_arg0 (((cfg0.win 0).blk t).view.emb (ix2 r d)) = V m c main_arg0 (ix2 (row p r) d)
  refine congrArg _ (funext fun a => Fin.ext ?_)
  match a with
  | ⟨0, _⟩ => show win0_0.index t (0 : Fin 2) * 2048 + 1 * r.val = p.val * 2048 + r.val; rw [e0, hp]; omega
  | ⟨1, _⟩ => show win0_0.index t (1 : Fin 2) * 512 + 1 * d.val = d.val; rw [e1]; omega

/-- Row r of point t's block of F is row 2048 t + r of F. -/
theorem fblk_apply (c : Dev nD) (t : Fin cfg0.N) (p : Fin 32) (hp : p.val = t.val) (r : Fin 2048) (k : Fin 64) :
    fblk m c t (ix2 r k) = farr m c (ix2 (row p r) k) := by
  obtain ⟨-, -, e0, e1, -⟩ := idx_facts t
  unfold fblk iblk
  rw [View.read_apply]
  show V m c main_arg1 (((cfg0.win 1).blk t).view.emb (ix2 r k)) = V m c main_arg1 (ix2 (row p r) k)
  refine congrArg _ (funext fun a => Fin.ext ?_)
  match a with
  | ⟨0, _⟩ => show win0_1.index t (0 : Fin 2) * 2048 + 1 * r.val = p.val * 2048 + r.val; rw [e0, hp]; omega
  | ⟨1, _⟩ => show win0_1.index t (1 : Fin 2) * 64 + 1 * k.val = k.val; rw [e1]; omega

/-- Point t's tile product at (k,d) is tile t's part of the Gram entry. -/
theorem gramTile_eq (c : Dev nD) (t : Fin cfg0.N) (k : Fin 64) (d : Fin 512) :
    ∑ r : Fin 2048, fblk m c t (ix2 r k) * hblk m c t (ix2 r d)
      = tileGramN (harr m c) (farr m c) t.val k d := by
  have hN : t.val < 32 := lt_of_lt_of_eq t.isLt N_0
  unfold tileGramN
  rw [dif_pos hN]
  unfold tileGram
  refine Finset.sum_congr rfl fun r _ => ?_
  rw [hblk_apply m c t ⟨t.val, hN⟩ rfl r d, fblk_apply m c t ⟨t.val, hN⟩ rfl r k]

/-- Point t's sum of squares is tile t's part of the squared norm. -/
theorem sqTile_eq (c : Dev nD) (t : Fin cfg0.N) :
    ∑ r : Fin 2048, ∑ d : Fin 512, hblk m c t (ix2 r d) * hblk m c t (ix2 r d)
      = tileSqN (harr m c) t.val := by
  have hN : t.val < 32 := lt_of_lt_of_eq t.isLt N_0
  unfold tileSqN
  rw [dif_pos hN]
  unfold tileSq
  refine Finset.sum_congr rfl fun r _ => Finset.sum_congr rfl fun d _ => ?_
  rw [hblk_apply m c t ⟨t.val, hN⟩ rfl r d]

/-- The cleared blocks hold the extended real 0. -/
theorem zero_gram (y : S1x64x512.Idx) : (k0_pay1 (F := Ideal)) y = 0 := Ideal.ofBits_zero_f32
theorem zero_sq (y : S1x1x1.Idx) : (k0_pay2 (F := Ideal)) y = 0 := Ideal.ofBits_zero_f32

/-- After the first point of a half both accumulators hold that point's tile alone ... -/
theorem point_first (c : Dev nD) (t : Fin cfg0.N) (h0 : t.val % 16 = 0) :
    outsAt0 m c t.val t.isLt
      = (k0_pay4 (iblk m c 0 t) (iblk m c 1 t) (k0_pay1 (F := Ideal)), k0_pay3 (iblk m c 0 t) (k0_pay2 (F := Ideal))) := by
  rw [outsAt0_A m c t h0]
  exact congrArg₂ Prod.mk
    (Found.out_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t))
    (Found.out_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t))

/-- ... and after a later point what the point before left, plus that point's tile. -/
theorem point_later (c : Dev nD) (t : Fin cfg0.N) (h0 : ¬t.val % 16 = 0) :
    outsAt0 m c t.val t.isLt
      = (k0_pay4 (iblk m c 0 t) (iblk m c 1 t) (outsAt0 m c (t.val - 1) (Nat.lt_of_le_of_lt (Nat.sub_le _ _) t.isLt)).1,
         k0_pay3 (iblk m c 0 t) (outsAt0 m c (t.val - 1) (Nat.lt_of_le_of_lt (Nat.sub_le _ _) t.isLt)).2) := by
  rw [outsAt0_B m c t h0]
  exact congrArg₂ Prod.mk
    (Found.out_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2)
    (Found.out_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).1 (outsAt0 m c (t.val - 1) (Nat.lt_of_le_of_lt (Nat.sub_le _ _) t.isLt)).2)

/-- The same, entry by entry. -/
theorem gram_first (c : Dev nD) (n : ℕ) (hn : n < cfg0.N) (h0 : n % 16 = 0) (k : Fin 64) (d : Fin 512) :
    (outsAt0 m c n hn).1 (ix3 (0 : Fin 1) k d) = tileGramN (harr m c) (farr m c) n k d := by
  have hp : outsAt0 m c n hn = _ := point_first m c ⟨n, hn⟩ h0
  rw [hp]
  refine (PointValue.gram_apply _ _ _ k d).trans ?_
  rw [zero_gram, zero_add]
  exact gramTile_eq m c ⟨n, hn⟩ k d

theorem sq_first (c : Dev nD) (n : ℕ) (hn : n < cfg0.N) (h0 : n % 16 = 0) :
    (outsAt0 m c n hn).2 (ix3 (0 : Fin 1) (0 : Fin 1) (0 : Fin 1)) = tileSqN (harr m c) n := by
  have hp : outsAt0 m c n hn = _ := point_first m c ⟨n, hn⟩ h0
  rw [hp]
  refine (PointValue.sq_apply _ _).trans ?_
  rw [zero_sq, zero_add]
  exact sqTile_eq m c ⟨n, hn⟩

theorem gram_later (c : Dev nD) (n : ℕ) (hn : n < cfg0.N) (h0 : ¬n % 16 = 0) (hn' : n - 1 < cfg0.N) (k : Fin 64) (d : Fin 512) :
    (outsAt0 m c n hn).1 (ix3 (0 : Fin 1) k d)
      = (outsAt0 m c (n - 1) hn').1 (ix3 (0 : Fin 1) k d) + tileGramN (harr m c) (farr m c) n k d := by
  have hp : outsAt0 m c n hn = _ := point_later m c ⟨n, hn⟩ h0
  rw [hp]
  refine (PointValue.gram_apply _ _ _ k d).trans ?_
  exact congrArg₂ (· + ·) rfl (gramTile_eq m c ⟨n, hn⟩ k d)

theorem sq_later (c : Dev nD) (n : ℕ) (hn : n < cfg0.N) (h0 : ¬n % 16 = 0) (hn' : n - 1 < cfg0.N) :
    (outsAt0 m c n hn).2 (ix3 (0 : Fin 1) (0 : Fin 1) (0 : Fin 1))
      = (outsAt0 m c (n - 1) hn').2 (ix3 (0 : Fin 1) (0 : Fin 1) (0 : Fin 1)) + tileSqN (harr m c) n := by
  have hp : outsAt0 m c n hn = _ := point_later m c ⟨n, hn⟩ h0
  rw [hp]
  refine (PointValue.sq_apply _ _).trans ?_
  exact congrArg₂ (· + ·) rfl (sqTile_eq m c ⟨n, hn⟩)

/-- After point 16 q + i the Gram accumulator holds the sum of tiles 16 q, ..., 16 q + i. -/
theorem gram_acc (c : Dev nD) (q : ℕ) (k : Fin 64) (d : Fin 512) : ∀ (i : ℕ), i < 16 → ∀ (n : ℕ) (hn : n < cfg0.N), n = 16 * q + i →
    (outsAt0 m c n hn).1 (ix3 (0 : Fin 1) k d) = ∑ j ∈ Finset.range (i + 1), tileGramN (harr m c) (farr m c) (16 * q + j) k d
  | 0, _, n, hn, e => by
    rw [gram_first m c n hn (by omega) k d, Finset.sum_range_one, e]
  | i + 1, hi, n, hn, e => by
    have hn' : n - 1 < cfg0.N := Nat.lt_of_le_of_lt (Nat.sub_le _ _) hn
    rw [gram_later m c n hn (by omega) hn' k d, gram_acc c q k d i (by omega) (n - 1) hn' (by omega),
      Finset.sum_range_succ _ (i + 1), e]

/-- After point 16 q + i the squared-norm accumulator holds the sum of tiles 16 q, ..., 16 q + i. -/
theorem sq_acc (c : Dev nD) (q : ℕ) : ∀ (i : ℕ), i < 16 → ∀ (n : ℕ) (hn : n < cfg0.N), n = 16 * q + i →
    (outsAt0 m c n hn).2 (ix3 (0 : Fin 1) (0 : Fin 1) (0 : Fin 1)) = ∑ j ∈ Finset.range (i + 1), tileSqN (harr m c) (16 * q + j)
  | 0, _, n, hn, e => by
    rw [sq_first m c n hn (by omega), Finset.sum_range_one, e]
  | i + 1, hi, n, hn, e => by
    have hn' : n - 1 < cfg0.N := Nat.lt_of_le_of_lt (Nat.sub_le _ _) hn
    rw [sq_later m c n hn (by omega) hn', sq_acc c q i (by omega) (n - 1) hn' (by omega),
      Finset.sum_range_succ _ (i + 1), e]

end Cert.KernelIdeal.Accumulate

end
-- ==== Proof.Parts.lean ====
/-
  The two output arrays after the run: each half's partial sums.

  Output block q (q = 0, 1) is written back once, after the last point of half q (points 15 and 31), when the
  accumulators hold the sums over the half's 16 tiles. The two blocks tile the arrays, so after the run the
  2 x 64 x 512 array holds at (q,k,d) half q's part of entry (k,d) of F^T h, and the 2 x 1 x 1 array holds at (q,0,0)
  half q's part of the squared norm of h.
-/
import proofs.«178253_j67181878444634_2_alg».proof.Proof.Accumulate

noncomputable section

open Idealize.ShloMosaic Idealize.ShloMosaic.TcCoe Idealize.SL.Sem Idealize.ShloMosaic.ValueIdx
open Idealize.ShloMosaic.Pipeline (Dat)

namespace Cert.KernelIdeal.Parts

open Cert.KernelIdeal Cert.KernelIdeal.Gen Cert.TileSums Cert.KernelIdeal.Accumulate

variable (m : (ℓ : Loc nD τ sig) → Buf (Elt Ideal) ℓ)

/-- The partial Gram matrices: at (q,k,d), half q's part of entry (k,d) of F^T h. -/
def gparts (c : Dev nD) : S2x64x512.Idx → EReal := fun i => halfGram (harr m c) (farr m c) (i 0) (i 1) (i 2)

/-- The partial squared norms: at (q,0,0), half q's part of the squared norm of h. -/
def sparts (c : Dev nD) : S2x1x1.Idx → EReal := fun i => halfSq (harr m c) (i 0)

theorem halfGram_congr (h : (⟨2, ![65536, 512]⟩ : Shape).Idx → EReal) (f : (⟨2, ![65536, 64]⟩ : Shape).Idx → EReal)
    {q q' : Fin 2} {k k' : Fin 64} {d d' : Fin 512} (hq : q.val = q'.val) (hk : k.val = k'.val) (hd : d.val = d'.val) :
    halfGram h f q k d = halfGram h f q' k' d' := by
  obtain rfl := Fin.ext hq; obtain rfl := Fin.ext hk; obtain rfl := Fin.ext hd; rfl

theorem halfSq_congr (h : (⟨2, ![65536, 512]⟩ : Shape).Idx → EReal) {q q' : Fin 2} (hq : q.val = q'.val) :
    halfSq h q = halfSq h q' := by
  obtain rfl := Fin.ext hq; rfl

/-- At the last point of a half the Gram accumulator holds the half's sum. -/
theorem gram_last (c : Dev nD) (t : Fin cfg0.N) (h15 : t.val % 16 = 15) (q : Fin 2) (hq : q.val = t.val / 16)
    (u : Fin 1) (k : Fin 64) (d : Fin 512) :
    (outsAt0 m c t.val t.isLt).1 (ix3 u k d) = halfGram (harr m c) (farr m c) q k d := by
  obtain rfl : u = 0 := Fin.ext (by omega)
  rw [gram_acc m c q.val k d 15 (by omega) t.val t.isLt (by omega)]
  rfl

/-- At the last point of a half the squared-norm accumulator holds the half's sum. -/
theorem sq_last (c : Dev nD) (t : Fin cfg0.N) (h15 : t.val % 16 = 15) (q : Fin 2) (hq : q.val = t.val / 16)
    (u v w : Fin 1) :
    (outsAt0 m c t.val t.isLt).2 (ix3 u v w) = halfSq (harr m c) q := by
  obtain rfl : u = 0 := Fin.ext (by omega)
  obtain rfl : v = 0 := Fin.ext (by omega)
  obtain rfl : w = 0 := Fin.ext (by omega)
  rw [sq_acc m c q.val 15 (by omega) t.val t.isLt (by omega)]
  rfl

/-- At the last point of a half, each entry of the Gram accumulator is the entry of the partial Gram matrices it
    is written back to. -/
theorem gflushed_at (c : Dev nD) (t : Fin cfg0.N) (h15 : t.val % 16 = 15) (y : S1x64x512.Idx) :
    (outsAt0 m c t.val t.isLt).1 y = gparts m c (((cfg0.win 2).blk t).view.emb y) := by
  have hN : t.val < 32 := lt_of_lt_of_eq t.isLt N_0
  obtain ⟨-, -, -, -, e0, e1, e2, -⟩ := idx_facts t
  obtain ⟨u, k, d, rfl⟩ : ∃ (u : Fin 1) (k : Fin 64) (d : Fin 512), y = ix3 u k d := ⟨y 0, y 1, y 2, eq_ix3 y⟩
  rw [gram_last m c t h15 ⟨t.val / 16, by omega⟩ rfl u k d]
  show _ = halfGram _ _ _ _ _
  refine halfGram_congr _ _ ?_ ?_ ?_
  · show t.val / 16 = win0_2.index t (0 : Fin 3) * 1 + 1 * u.val
    rw [e0]; omega
  · show k.val = win0_2.index t (1 : Fin 3) * 64 + 1 * k.val
    rw [e1]; omega
  · show d.val = win0_2.index t (2 : Fin 3) * 512 + 1 * d.val
    rw [e2]; omega

/-- The same for the squared-norm accumulator. -/
theorem sflushed_at (c : Dev nD) (t : Fin cfg0.N) (h15 : t.val % 16 = 15) (y : S1x1x1.Idx) :
    (outsAt0 m c t.val t.isLt).2 y = sparts m c (((cfg0.win 3).blk t).view.emb y) := by
  have hN : t.val < 32 := lt_of_lt_of_eq t.isLt N_0
  obtain ⟨-, -, -, -, -, -, -, e0, e1, e2⟩ := idx_facts t
  obtain ⟨u, v, w, rfl⟩ : ∃ (u : Fin 1) (v : Fin 1) (w : Fin 1), y = ix3 u v w := ⟨y 0, y 1, y 2, eq_ix3 y⟩
  rw [sq_last m c t h15 ⟨t.val / 16, by omega⟩ rfl u v w]
  show _ = halfSq _ _
  refine halfSq_congr _ ?_
  show t.val / 16 = win0_3.index t (0 : Fin 3) * 1 + 1 * u.val
  rw [e0]; omega

/-- What a flushing point writes back to the Gram output is its block of the partial Gram matrices. -/
theorem gflushed_eq (c : Dev nD) (t : Fin cfg0.N) (hf : (cfg0.win 2).flush t = true) :
    (dats m 0 c).flushed 2 t = ((cfg0.win 2).blk t).view.read (Elt Ideal) (gparts m c) := by
  have h15 : t.val % 16 = 15 := (flush0_2 t).mp hf
  show (cfg0.win 2).cut (grid0.coords t) ((dats m 0 c).after 2 t) = _
  rw [after0_2]
  funext y
  exact gflushed_at m c t h15 y

/-- What a flushing point writes back to the squared-norm output is its block of the partial squared norms. -/
theorem sflushed_eq (c : Dev nD) (t : Fin cfg0.N) (hf : (cfg0.win 3).flush t = true) :
    (dats m 0 c).flushed 3 t = ((cfg0.win 3).blk t).view.read (Elt Ideal) (sparts m c) := by
  have h15 : t.val % 16 = 15 := (flush0_3 t).mp hf
  show (cfg0.win 3).cut (grid0.coords t) ((dats m 0 c).after 3 t) = _
  rw [after0_3]
  funext y
  exact sflushed_at m c t h15 y

/-- An index lies in point t's block of the Gram output iff each coordinate lies in the block's range. -/
theorem gmem_blk (t : Fin cfg0.N) (i : S2x64x512.Idx) :
    i ∈ ((cfg0.win 2).blk t).view.set ↔ ∀ a : Fin 3, win0_2.index t a * S1x64x512.size a ≤ (i a).val ∧ (i a).val < win0_2.index t a * S1x64x512.size a + S1x64x512.size a := by
  show i ∈ ((View.whole main_v0_0).slice (win0_2.rect t)).set ↔ _
  rw [View.set_slice_whole, Rect.mem_set_unit]
  exact Iff.rfl

theorem smem_blk (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v0_1).slice (win0_3.rect t)).set ↔ _
  rw [View.set_slice_whole, Rect.mem_set_unit]
  exact Iff.rfl

/-- The last point of half q. -/
def lastPt (q : ℕ) (hq : q < 2) : Fin cfg0.N := Fin.cast N_0.symm ⟨16 * q + 15, by omega⟩

theorem lastPt_val (q : ℕ) (hq : q < 2) : (lastPt q hq).val = 16 * q + 15 := rfl

/-- After the run the Gram output holds the partial Gram matrices. -/
theorem gfinal (c : Dev nD) : (dats m 0 c).arrAt 2 cfg0.N = gparts m c :=
  (dats m 0 c).arrAt_eq_of_cover 2 (gparts m c) (gflushed_eq m c) fun i => by
    have h0 : (i 0).val < 2 := (i 0).isLt
    have h1 : (i 1).val < 64 := (i 1).isLt
    have h2 : (i 2).val < 512 := (i 2).isLt
    have hv := lastPt_val (i 0).val h0
    obtain ⟨-, -, -, -, e0, e1, e2, -⟩ := idx_facts (lastPt (i 0).val h0)
    refine ⟨lastPt (i 0).val h0, (flush0_2 _).mpr (by rw [hv]; omega), ?_⟩
    rw [gmem_blk]
    intro a
    match a with
    | ⟨0, _⟩ => show win0_2.index (lastPt (i 0).val h0) (0 : Fin 3) * 1 ≤ (i 0).val ∧ (i 0).val < win0_2.index (lastPt (i 0).val h0) (0 : Fin 3) * 1 + 1
                rw [e0, hv]; omega
    | ⟨1, _⟩ => show win0_2.index (lastPt (i 0).val h0) (1 : Fin 3) * 64 ≤ (i 1).val ∧ (i 1).val < win0_2.index (lastPt (i 0).val h0) (1 : Fin 3) * 64 + 64
                rw [e1]; omega
    | ⟨2, _⟩ => show win0_2.index (lastPt (i 0).val h0) (2 : Fin 3) * 512 ≤ (i 2).val ∧ (i 2).val < win0_2.index (lastPt (i 0).val h0) (2 : Fin 3) * 512 + 512
                rw [e2]; omega

/-- After the run the squared-norm output holds the partial squared norms. -/
theorem sfinal (c : Dev nD) : (dats m 0 c).arrAt 3 cfg0.N = sparts m c :=
  (dats m 0 c).arrAt_eq_of_cover 3 (sparts m c) (sflushed_eq m c) fun i => by
    have h0 : (i 0).val < 2 := (i 0).isLt
    have h1 : (i 1).val < 1 := (i 1).isLt
    have h2 : (i 2).val < 1 := (i 2).isLt
    have hv := lastPt_val (i 0).val h0
    obtain ⟨-, -, -, -, -, -, -, e0, e1, e2⟩ := idx_facts (lastPt (i 0).val h0)
    refine ⟨lastPt (i 0).val h0, (flush0_3 _).mpr (by rw [hv]; omega), ?_⟩
    rw [smem_blk]
    intro a
    match a with
    | ⟨0, _⟩ => show win0_3.index (lastPt (i 0).val h0) (0 : Fin 3) * 1 ≤ (i 0).val ∧ (i 0).val < win0_3.index (lastPt (i 0).val h0) (0 : Fin 3) * 1 + 1
                rw [e0, hv]; omega
    | ⟨1, _⟩ => show win0_3.index (lastPt (i 0).val h0) (1 : Fin 3) * 1 ≤ (i 1).val ∧ (i 1).val < win0_3.index (lastPt (i 0).val h0) (1 : Fin 3) * 1 + 1
                rw [e1]; omega
    | ⟨2, _⟩ => show win0_3.index (lastPt (i 0).val h0) (2 : Fin 3) * 1 ≤ (i 2).val ∧ (i 2).val < win0_3.index (lastPt (i 0).val h0) (2 : Fin 3) * 1 + 1
                rw [e2]; omega

end Cert.KernelIdeal.Parts

end
-- ==== Proof.KernelRun.lean ====
/-
  The idealized kernel's result.

  After the grid, the host adds the two partial Gram matrices entry by entry, squares and sums the entries, adds the
  two partial squared norms, and subtracts: result = (sum of partial norms) - sum_(k,d) (sum of partial Gram entries)^2.
  With the output arrays holding each half's partial sums, the run ends with the result buffer at that function of
  the partial sums, and the two argument arrays unchanged.
-/
import proofs.«178253_j67181878444634_2_alg».proof.Proof.Parts
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.TileSums Cert.KernelIdeal.Accumulate Cert.KernelIdeal.Parts

variable (m : (ℓ : Loc nD τ sig) → Buf (Elt Ideal) ℓ) (ρ : Dev nD → PrngReg)

/-- The host's combination of the partial sums: the Gram parts added, squared and summed; the norm parts summed;
    the difference. -/
def combine (g : S2x64x512.Idx → EReal) (s : S2x1x1.Idx → EReal) : S_.Idx → EReal :=
  subf (F := Ideal) (s := S_) (φ := .f32)
    (Host.reduceAdd (F := Ideal) (φ := .f32) s (constant (F := Ideal) S_ .f32 0x00000000#32) reducesTo_S2x1x1_S_d0_1_2 h_S_)
    (Host.reduceAdd (F := Ideal) (φ := .f32)
      (mulf (F := Ideal) (s := S64x512) (φ := .f32)
        (Host.reduceAdd (F := Ideal) (φ := .f32) g (constant (F := Ideal) S_ .f32 0x00000000#32) reducesTo_S2x64x512_S64x512_d0 h_S_)
        (Host.reduceAdd (F := Ideal) (φ := .f32) g (constant (F := Ideal) S_ .f32 0x00000000#32) reducesTo_S2x64x512_S64x512_d0 h_S_))
      (constant (F := Ideal) S_ .f32 0x00000000#32) reducesTo_S64x512_S_d0_1 h_S_)

/-- The buffer the host operations after the grid leave in the result: the combination of the partial sums. -/
theorem tail_eq (c : Dev nD) :
    Pipeline.afterTail₀ cfgs (dats m) 0 (V0 m) [hostOps1] c main_v5 = combine (gparts m c) (sparts m c) := by
  have e2 : Pipeline.withArrays (cfgs 0).spec c (V0 m c) (fun w => (dats m 0 c).arrAt w (cfgs 0).N) (Proc.devRef .tc main_v0_0)
      = gparts m c := (Pipeline.withArrays_arr spec0 launch0.win.arr_inj c _ _ 2).trans (gfinal m c)
  have e3 : Pipeline.withArrays (cfgs 0).spec c (V0 m c) (fun w => (dats m 0 c).arrAt w (cfgs 0).N) (Proc.devRef .tc main_v0_1)
      = sparts m c := (Pipeline.withArrays_arr spec0 launch0.win.arr_inj c _ _ 3).trans (sfinal m c)
  unfold Pipeline.afterTail₀
  show StableHlo.after hostOps1 _ (Proc.devRef .tc main_v5) = _
  after_results
  rw [e2, e3]
  rfl

/-- Every weakly fair execution of the idealized kernel's program terminates with the result at the combination of
    the partial sums and both arguments unchanged. -/
theorem run : θ_run defs (onTc (τ := τ) (main (F := Ideal))) ⟨m, fun _ => 0, ρ⟩ fun r => ∀ c : Dev nD,
      r.2.mem ((c.tc : Thread nD τ).loc main_v5) = combine (gparts m c) (sparts m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 (by decide) (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

/-- The host's sum of the two partial Gram matrices at (k,d): the initial value plus the two parts. -/
theorem gsum_apply (g : S2x64x512.Idx → EReal) (k : Fin 64) (d : Fin 512) :
    Host.reduceAdd (F := Ideal) (φ := .f32) g (constant (F := Ideal) S_ .f32 0x00000000#32) reducesTo_S2x64x512_S64x512_d0 h_S_ (ix2 k d)
      = Ideal.ofBits .f32 0x00000000#32 + ∑ q : Fin 2, g (ix3 q k d) := by
  simp only [Host.reduceAdd, Ideal.hostReduceAdd_def]
  refine (Ideal.hostReduceAdd_single reducesTo_S2x64x512_S64x512_d0 (by decide : S2x64x512.Reduces [0] S64x512) g _ (ix2 k d)).trans ?_
  refine congrArg₂ (· + ·) rfl (Finset.sum_congr rfl fun q _ => congrArg g ?_)
  funext a
  match a with
  | ⟨0, _⟩ => rfl
  | ⟨1, _⟩ => rfl
  | ⟨2, _⟩ => rfl

/-- The host's sum of every entry of an array into a scalar: the initial value plus the sum of the entries. -/
theorem ssum_apply (s : S2x1x1.Idx → EReal) (i : S_.Idx) :
    Host.reduceAdd (F := Ideal) (φ := .f32) s (constant (F := Ideal) S_ .f32 0x00000000#32) reducesTo_S2x1x1_S_d0_1_2 h_S_ i
      = Ideal.ofBits .f32 0x00000000#32 + ∑ j, s j := by
  simp only [Host.reduceAdd, Ideal.hostReduceAdd_def]
  exact Ideal.hostReduceAdd_total reducesTo_S2x1x1_S_d0_1_2 (fun b => b.elim0) s _ i

theorem msum_apply (y : S64x512.Idx → EReal) (i : S_.Idx) :
    Host.reduceAdd (F := Ideal) (φ := .f32) y (constant (F := Ideal) S_ .f32 0x00000000#32) reducesTo_S64x512_S_d0_1 h_S_ i
      = Ideal.ofBits .f32 0x00000000#32 + ∑ j, y j := by
  simp only [Host.reduceAdd, Ideal.hostReduceAdd_def]
  exact Ideal.hostReduceAdd_total reducesTo_S64x512_S_d0_1 (fun b => b.elim0) y _ i

/-- The combination read as numbers: (0 + the sum of the norm parts) - (0 + the sum over (k,d) of the squared sum of
    the Gram parts), the zeros being the reductions' initial value. -/
theorem combine_apply (g : S2x64x512.Idx → EReal) (s : S2x1x1.Idx → EReal) (i : S_.Idx) :
    combine g s i = (Ideal.ofBits .f32 0x00000000#32 + ∑ j, s j)
      - (Ideal.ofBits .f32 0x00000000#32 + ∑ k : Fin 64, ∑ d : Fin 512,
          (Ideal.ofBits .f32 0x00000000#32 + ∑ q : Fin 2, g (ix3 q k d)) * (Ideal.ofBits .f32 0x00000000#32 + ∑ q : Fin 2, g (ix3 q k d))) := by
  unfold combine
  refine (subf_apply _ _ i).trans ?_
  refine congrArg₂ (· - ·) (ssum_apply s i) ?_
  refine (msum_apply _ i).trans ?_
  refine congrArg₂ (· + ·) rfl ?_
  rw [sum_idx2]
  refine Finset.sum_congr rfl fun k _ => Finset.sum_congr rfl fun d _ => ?_
  refine (mulf_apply _ _ _).trans ?_
  rw [gsum_apply g k d]

end Cert.KernelIdeal.KernelRun

end
-- ==== Proof.Bridge.lean ====
/-
  The two programs compute one number.

  The reference computes  (0 + sum_(n,d) h[n,d]^2) - (0 + sum_(k,d) (sum_n F[n,k] h[n,d])^2)  over all 65536 rows at
  once. The kernel computes the same expression from the two halves' partial sums: the partial squared norms add up to
  sum_(n,d) h[n,d]^2 and, entry by entry, the partial Gram matrices add up to sum_n F[n,k] h[n,d]  (0 + x = x for the
  initial value of that inner sum). The regrouping of the sums is the only law used; it holds on the extended reals
  without any finiteness assumption, and the outer zeros, the squares and the subtraction are the same operations on
  both sides.
-/
import proofs.«178253_j67181878444634_2_alg».proof.Proof.KernelRun
import proofs.«178253_j67181878444634_2_alg».proof.Proof.Gen.ReferenceIdeal.Read

noncomputable section

open Idealize.ShloMosaic Idealize.ShloMosaic.TcCoe Idealize.SL.Sem Idealize.ShloMosaic.ValueIdx

namespace Cert.Bridge

open Cert.TileSums

/-- The reference's result as numbers. -/
theorem ref_apply (h : (⟨2, ![65536, 512]⟩ : Shape).Idx → EReal) (f : (⟨2, ![65536, 64]⟩ : Shape).Idx → EReal)
    (i : Cert.ReferenceIdeal.S_.Idx) :
    Cert.ReferenceIdeal.Read.val_main_v6 (F := Ideal) h f i
      = (Ideal.ofBits .f32 0x00000000#32 + ∑ n : Fin 65536, ∑ d : Fin 512, h (ix2 n d) * h (ix2 n d))
        - (Ideal.ofBits .f32 0x00000000#32 + ∑ k : Fin 64, ∑ d : Fin 512,
            (∑ n : Fin 65536, f (ix2 n k) * h (ix2 n d)) * (∑ n : Fin 65536, f (ix2 n k) * h (ix2 n d))) := by
  rw [Cert.ReferenceIdeal.Read.val_main_v6_apply, Cert.ReferenceIdeal.Read.val_main_v1_apply,
    Cert.ReferenceIdeal.Read.val_main_v5_apply]
  refine congrArg₂ (· - ·) (congrArg₂ (· + ·) rfl ?_) (congrArg₂ (· + ·) rfl ?_)
  · rw [sum_idx2]
    rfl
  · rw [sum_idx2]
    refine Finset.sum_congr rfl fun k _ => Finset.sum_congr rfl fun d _ => ?_
    rw [Cert.ReferenceIdeal.Read.val_main_v4_apply, Cert.ReferenceIdeal.Read.val_main_v3_apply]
    have e : ∀ n : Fin 65536,
        Cert.ReferenceIdeal.Read.val_main_v2 (F := Ideal) f (Cert.ReferenceIdeal.Read.lidx_main_v3 (ix2 k d) n)
          * h (Cert.ReferenceIdeal.Read.ridx_main_v3 (ix2 k d) n) = f (ix2 n k) * h (ix2 n d) := fun n => by
      rw [Cert.ReferenceIdeal.Read.val_main_v2_apply]
      have e1 : Cert.ReferenceIdeal.Read.idx_main_v2 (Cert.ReferenceIdeal.Read.lidx_main_v3 (ix2 k d) n) = ix2 n k :=
        funext fun a => Fin.ext (by match a with | ⟨0, _⟩ => rfl | ⟨1, _⟩ => rfl)
      have e2 : Cert.ReferenceIdeal.Read.ridx_main_v3 (ix2 k d) n = ix2 n d :=
        funext fun a => Fin.ext (by match a with | ⟨0, _⟩ => rfl | ⟨1, _⟩ => rfl)
      rw [e1, e2]
    simp only [e]
    rfl

/-- The kernel's combination of its partial sums is the reference's result of the same two arrays. -/
theorem result_eq (m : (ℓ : Loc Cert.KernelIdeal.nD Cert.KernelIdeal.τ Cert.KernelIdeal.sig) → Buf (Elt Ideal) ℓ)
    (c : Dev Cert.KernelIdeal.nD) :
    Cert.KernelIdeal.KernelRun.combine (Cert.KernelIdeal.Parts.gparts m c) (Cert.KernelIdeal.Parts.sparts m c)
      = Cert.ReferenceIdeal.Read.val_main_v6 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  rw [Cert.KernelIdeal.KernelRun.combine_apply]
  refine Eq.trans ?_ (ref_apply _ _ i).symm
  refine congrArg₂ (· - ·) (congrArg₂ (· + ·) rfl ?_) (congrArg₂ (· + ·) rfl ?_)
  · rw [sum_idx211]
    exact sum_halfSq (Cert.KernelIdeal.Accumulate.harr m c)
  · refine Finset.sum_congr rfl fun k _ => Finset.sum_congr rfl fun d _ => ?_
    have e : Ideal.ofBits .f32 0x00000000#32 + ∑ q : Fin 2, Cert.KernelIdeal.Parts.gparts m c (ix3 q k d)
        = ∑ n : Fin 65536, Cert.KernelIdeal.Accumulate.farr m c (ix2 n k) * Cert.KernelIdeal.Accumulate.harr m c (ix2 n d) := by
      rw [Ideal.ofBits_zero_f32, zero_add]
      exact sum_halfGram (Cert.KernelIdeal.Accumulate.harr m c) (Cert.KernelIdeal.Accumulate.farr m c) k d
    rw [e]

end Cert.Bridge

end
-- ==== Proof.lean ====
/-
  A trace loss accumulated tile by tile on a 2 x 16 grid, against the whole-array formula.

  Both programs compute, from h (65536 x 512) and F (65536 x 64),
      loss = sum_(n,d) h[n,d]^2 - sum_(k,d) (sum_n F[n,k] h[n,d])^2 .
  The reference takes the two sums over all 65536 rows at once. The kernel walks a 2 x 16 grid of 2048-row tiles,
  accumulating per half the partial squared norm and the partial Gram matrix F^T h (cleared at the first tile of each
  half), and the host then adds the two halves' Gram matrices BEFORE squaring, adds the two partial norms, and subtracts.
  Over the extended reals a change of float format is the identity, so the kernel's bf16 product is the exact product,
  and the two sides differ only in how the sums over the rows are grouped: rows into tiles, tiles into halves.
  Addition on the extended reals is commutative and associative, so the regrouping needs no finiteness, and the
  precondition is never opened.

  The modules: Pieces (what one grid point leaves in the accumulators, as a value), PointValue (that value entry by
  entry), TileSums (the regrouping of the sums), Accumulate (the accumulators after each point, by induction along a
  half), Parts (the output arrays after the run), KernelRun (the host's combination and the kernel's run with its
  result named), Bridge (the kernel's number is the reference's). The idealization rewrote nothing, so the
  preservation claim is trivial; the three frames are the generated ones (the reference's is its generated run with
  the result dropped).
-/
import proofs.«178253_j67181878444634_2_alg».proof.Defs
import proofs.«178253_j67181878444634_2_alg».proof.Proof.Gen.Kernel
import proofs.«178253_j67181878444634_2_alg».proof.Proof.Gen.Kernel.Skeleton
import proofs.«178253_j67181878444634_2_alg».proof.Proof.Gen.Kernel.Launch
import proofs.«178253_j67181878444634_2_alg».proof.Proof.Gen.Kernel.Points
import proofs.«178253_j67181878444634_2_alg».proof.Proof.Gen.Kernel.Frame
import proofs.«178253_j67181878444634_2_alg».proof.Proof.Gen.KernelIdeal
import proofs.«178253_j67181878444634_2_alg».proof.Proof.Gen.KernelIdeal.Skeleton
import proofs.«178253_j67181878444634_2_alg».proof.Proof.Gen.KernelIdeal.Launch
import proofs.«178253_j67181878444634_2_alg».proof.Proof.Gen.KernelIdeal.Points
import proofs.«178253_j67181878444634_2_alg».proof.Proof.Gen.KernelIdeal.Frame
import proofs.«178253_j67181878444634_2_alg».proof.Proof.Gen.ReferenceIdeal
import proofs.«178253_j67181878444634_2_alg».proof.Proof.Gen.ReferenceIdeal.Run
import proofs.«178253_j67181878444634_2_alg».proof.Proof.Gen.ReferenceIdeal.Read
import proofs.«178253_j67181878444634_2_alg».proof.Proof.Gen.Pre_finite_inputs
import proofs.«178253_j67181878444634_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on h and F, the idealized kernel ends with its result at the combination of its partial sums,
    the reference with its result at the whole-array formula, and the two are the same extended real. -/
theorem algebraic : Cert.algebraic_KernelIdeal_ReferenceIdeal := by
  intro m ρ m' ρ' _ hagree
  refine ⟨fun c => Cert.KernelIdeal.KernelRun.combine (Cert.KernelIdeal.Parts.gparts m c) (Cert.KernelIdeal.Parts.sparts m c),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
